-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S16384x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048 : Shape := ⟨1, ![2048]⟩
abbrev S1x2048 : Shape := ⟨2, ![1, 2048]⟩
abbrev S2x16384x2048 : Shape := ⟨3, ![2, 16384, 2048]⟩
abbrev S512x2048 : Shape := ⟨2, ![512, 2048]⟩
abbrev S2x512x2048 : Shape := ⟨3, ![2, 512, 2048]⟩
abbrev S1x512x2048 : Shape := ⟨3, ![1, 512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S2x16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2x512x2048, .f32⟩
  | .local _ .vmem, ⟨6, _⟩ => ⟨S2x512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S2x512x2048_S1x512x2048_1_0_0 : ∀ a, (![1, 0, 0] : Fin 3 → Nat) a + S1x512x2048.size a ≤ S2x512x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x2048.size a ≤ S2x16384x2048.size a
  hwx0_3 : ∀ i : grid0.Coords, EltTy.bits .f32 = 32 ∨ (Rect.block (s := S2x16384x2048) S2x512x2048.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048 : Shape := ⟨1, ![2048]⟩
abbrev S1x2048 : Shape := ⟨2, ![1, 2048]⟩
abbrev S1x16384x2048 : Shape := ⟨3, ![1, 16384, 2048]⟩
abbrev S2x16384x2048 : Shape := ⟨3, ![2, 16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x16384x2048, .f32⟩
  | .hbm, ⟨20, _⟩ => ⟨S1x16384x2048, .f32⟩
  | .hbm, ⟨21, _⟩ => ⟨S2x16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S16384x2048_S1x16384x2048_1_2 : S16384x2048.BroadcastsInDim S1x16384x2048 (![1, 2] : Fin 2 → Fin S1x16384x2048.rank)
  concatenates_S1x16384x2048_S1x16384x2048_S2x16384x2048_d0 : Shape.Concatenates [S1x16384x2048, S1x16384x2048] S2x16384x2048 0

variable [Facts₀]

class Facts : Prop extends Facts₀ where

variable [Facts]
-- ==== Proof.Rotation.lean ====
/-
  The mathematics of the claim, with no program in sight.

  A complex array `xr + i·xi` of 16384 rows and 2048 columns is rotated column by column: column `q` is
  multiplied by the unit complex number `cos p_q + i·sin p_q`, where `p` is a vector of 2048 phases.
  The result is stored as two real planes, plane 0 the real part and plane 1 the imaginary part:

      out[0, r, q] = xr[r, q] · cos p_q − xi[r, q] · sin p_q
      out[1, r, q] = xr[r, q] · sin p_q + xi[r, q] · cos p_q

  Everything is read on the extended reals, where the cosine and sine of an infinite phase are the
  conventional value the ideal instance gives them; the two programs apply the SAME operations in the
  SAME order to each entry, so no law of arithmetic is needed to join them, and no input has to be
  finite.
-/
import Idealize.ShloMosaic.PureOps.Ideal
import Idealize.ShloMosaic.Lib.ValueIdx

noncomputable section

namespace Cert.Rotation

open Idealize.ShloMosaic Idealize.ShloMosaic.ValueIdx

/-- One entry of the rotated pair `(a + i·b)·(cos p + i·sin p)`: its real part when `plane = 0`, its
    imaginary part otherwise. -/
def entry (plane : Nat) (a b p : EReal) : EReal :=
  if plane = 0 then a * Ideal.cos p - b * Ideal.sin p else a * Ideal.sin p + b * Ideal.cos p

theorem entry_real (a b p : EReal) : entry 0 a b p = a * Ideal.cos p - b * Ideal.sin p := if_pos rfl

theorem entry_imag (a b p : EReal) : entry 1 a b p = a * Ideal.sin p + b * Ideal.cos p := if_neg (by decide)

/-- The rotated array: entry `(plane, r, q)` depends on `xr[r, q]`, `xi[r, q]` and the phase of column `q` only. -/
def rotate (xr xi : (⟨2, ![16384, 2048]⟩ : Shape).Idx → EReal) (ph : (⟨1, ![2048]⟩ : Shape).Idx → EReal) :
    (⟨3, ![2, 16384, 2048]⟩ : Shape).Idx → EReal :=
  fun i => entry (i 0).val (xr (ix2 (i 1) (i 2))) (xi (ix2 (i 1) (i 2))) (ph (ix1 (i 2)))

theorem rotate_apply (xr xi : (⟨2, ![16384, 2048]⟩ : Shape).Idx → EReal) (ph : (⟨1, ![2048]⟩ : Shape).Idx → EReal)
    (p : Fin 2) (r : Fin 16384) (q : Fin 2048) :
    rotate xr xi ph (ix3 p r q) = entry p.val (xr (ix2 r q)) (xi (ix2 r q)) (ph (ix1 q)) := rfl

end Cert.Rotation

end
-- ==== Proof.RefRotation.lean ====
/-
  The reference program's result is the rotated array.

  The reference forms `cos p` and `sin p` once, lays each along every row (a unit axis in front, then
  16384 copies of the row), multiplies, subtracts for the real plane and adds for the imaginary plane, gives
  each plane a unit leading axis and joins the two along it. Read at an entry `(plane, r, q)`, the join
  picks the plane, the unit axis disappears, the two row copies read column `q` of the phase vector, and
  what is left is `Rotation.entry` of `xr[r, q]`, `xi[r, q]` and `p_q`.
-/
import proofs.«143731_j24653112279144_2_alg».proof.Proof.Gen.ReferenceIdeal.Read
import proofs.«143731_j24653112279144_2_alg».proof.Proof.Rotation
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Rotation

/-- An entry of a plane with its unit leading axis reads the plane at the two trailing coordinates. -/
theorem plane_idx (r : Fin 16384) (q : Fin 2048) :
    idx_main_v16 (ix3 (0 : Fin 1) r q) = ix2 r q :=
  funext fun a => Fin.ext (by match a with | ⟨0, _⟩ => rfl | ⟨1, _⟩ => rfl)

theorem plane_idx' (r : Fin 16384) (q : Fin 2048) :
    idx_main_v17 (ix3 (0 : Fin 1) r q) = ix2 r q :=
  funext fun a => Fin.ext (by match a with | ⟨0, _⟩ => rfl | ⟨1, _⟩ => rfl)

/-- The row copy of the phase vector, read at `(r, q)`, reads the vector at `q`. -/
theorem column_idx (r : Fin 16384) (q : Fin 2048) :
    idx_main_v2 (idx_main_v3 (ix2 r q)) = ix1 q :=
  funext fun a => Fin.ext (by match a with | ⟨0, _⟩ => rfl)

/-- The real plane at `(r, q)`. -/
theorem real_plane (x0 x1 : FVec Ideal S16384x2048 .f32) (x2 : FVec Ideal S2048 .f32) (r : Fin 16384) (q : Fin 2048) :
    val_main_v16 (F := Ideal) x0 x1 x2 (ix3 (0 : Fin 1) r q)
      = x0 (ix2 r q) * Ideal.cos (x2 (ix1 q)) - x1 (ix2 r q) * Ideal.sin (x2 (ix1 q)) := by
  rw [val_main_v16_apply, plane_idx, val_main_v8_apply, val_main_v4_apply, val_main_v7_apply, val_main_v3_apply,
    val_main_v6_apply, val_main_v2_apply, val_main_v5_apply, val_main_v0_apply, val_main_v1_apply]
  exact congrArg₂ (fun a b => x0 (ix2 r q) * Ideal.cos (x2 a) - x1 (ix2 r q) * Ideal.sin (x2 b))
    (column_idx r q) (column_idx r q)

/-- The imaginary plane at `(r, q)`. -/
theorem imag_plane (x0 x1 : FVec Ideal S16384x2048 .f32) (x2 : FVec Ideal S2048 .f32) (r : Fin 16384) (q : Fin 2048) :
    val_main_v17 (F := Ideal) x0 x1 x2 (ix3 (0 : Fin 1) r q)
      = x0 (ix2 r q) * Ideal.sin (x2 (ix1 q)) + x1 (ix2 r q) * Ideal.cos (x2 (ix1 q)) := by
  rw [val_main_v17_apply, plane_idx', val_main_v15_apply, val_main_v11_apply, val_main_v14_apply, val_main_v10_apply,
    val_main_v13_apply, val_main_v9_apply, val_main_v12_apply, val_main_v0_apply, val_main_v1_apply]
  exact congrArg₂ (fun a b => x0 (ix2 r q) * Ideal.sin (x2 a) + x1 (ix2 r q) * Ideal.cos (x2 b))
    (column_idx r q) (column_idx r q)

/-- The reference's result, as a function of its three arguments, is the rotated array. -/
theorem result_eq (x0 x1 : FVec Ideal S16384x2048 .f32) (x2 : FVec Ideal S2048 .f32) :
    val_main_v18 (F := Ideal) x0 x1 x2 = rotate x0 x1 x2 := by
  funext i
  obtain ⟨p, r, q, rfl⟩ : ∃ (p : Fin 2) (r : Fin 16384) (q : Fin 2048), i = ix3 p r q := ⟨i 0, i 1, i 2, eq_ix3 i⟩
  rw [rotate_apply]
  unfold val_main_v18
  match p with
  | ⟨0, _⟩ =>
    rw [concatenate_pair_apply_left (t := S2x16384x2048) (s₁ := S1x16384x2048) (s₂ := S1x16384x2048) (0 : Fin 3) _ _ _
      (ix3 (⟨0, by decide⟩ : Fin 2) r q) (rfl : S1x16384x2048.rank = S2x16384x2048.rank) (ix3 (0 : Fin 1) r q)
      (fun b => by match b with | ⟨0, _⟩ => rfl | ⟨1, _⟩ => rfl | ⟨2, _⟩ => rfl)]
    rw [real_plane]
    exact (entry_real _ _ _).symm
  | ⟨1, _⟩ =>
    rw [concatenate_pair_apply_right (t := S2x16384x2048) (s₁ := S1x16384x2048) (s₂ := S1x16384x2048) (0 : Fin 3) _ _ _
      (ix3 (⟨1, by decide⟩ : Fin 2) r q) (rfl : S1x16384x2048.rank = S2x16384x2048.rank)
      (rfl : S1x16384x2048.rank = S2x16384x2048.rank) (ix3 (0 : Fin 1) r q)
      (fun b => by match b with | ⟨0, _⟩ => exact fun h => absurd rfl h | ⟨1, _⟩ => exact fun _ => rfl | ⟨2, _⟩ => exact fun _ => rfl)
      rfl]
    rw [imag_plane]
    exact (entry_imag _ _ _).symm

end Cert.ReferenceIdeal.RefValue

end
-- ==== Proof.KernelBlock.lean ====
/-
  What the kernel body leaves in its output block.

  At one grid point the body holds a block of 512 rows of `xr` and of `xi` and the one row of phases. It
  forms `cos` and `sin` of the row once, lays each along the 512 rows, and stores two pieces into the
  `[2, 512, 2048]` output block: piece 0 (plane 0) is `xr·cos − xi·sin`, piece 1 (plane 1) is
  `xr·sin + xi·cos`, each given a unit leading axis to fit its slab. The two slabs tile the block, so the block
  after the body is ONE function of the three inputs: entry `(plane, r, q)` is `Rotation.entry` of
  `xr[r, q]`, `xi[r, q]` and the phase of column `q`.
-/
import proofs.«143731_j24653112279144_2_alg».proof.Proof.Gen.KernelIdeal.Frame
import proofs.«143731_j24653112279144_2_alg».proof.Proof.Rotation
import Idealize.ShloMosaic.Lib.Pipeline.Value
import Idealize.ShloMosaic.Lib.ValueIdx

noncomputable section

namespace Cert.KernelIdeal.Block

open Cert.KernelIdeal Cert.KernelIdeal.Gen
open Idealize.ShloMosaic Idealize.ShloMosaic.ValueIdx Cert.Rotation

theorem zero_offsets : (![0, 0] : Fin 2 → Nat) = fun _ => 0 := funext fun a => by fin_cases a <;> rfl

/-- A `[512, 2048]` plane given a unit leading axis, read at `(0, r, q)`, is the plane at `(r, q)`. -/
theorem plane_apply (v : FVec Ideal S512x2048 .f32) (h : S512x2048.ShapeCasts S1x512x2048) (r : Fin 512) (q : Fin 2048) :
    shapeCast S1x512x2048 v h (ix3 (0 : Fin 1) r q) = v (ix2 r q) :=
  (shapeCast_addUnit_apply ![512, 2048] v h (ix3 (0 : Fin 1) r q)).trans
    (congrArg v (funext fun a => by match a with | ⟨0, _⟩ => rfl | ⟨1, _⟩ => rfl))

/-- The one row laid along 512 rows, read at `(r, q)`, is the row at column `q`. -/
theorem row_apply (v : FVec Ideal S1x2048 .f32) (h : S1x2048.Broadcasts S512x2048) (r : Fin 512) (q : Fin 2048) :
    broadcastTo S512x2048 v h (ix2 r q) = v (ix2 (0 : Fin 1) q) :=
  broadcastTo_apply v h (ix2 r q) (ix2 (0 : Fin 1) q) (fun a => by
    match a with
    | ⟨0, _⟩ => show (0 : Nat) = if (1 : Nat) = 1 then 0 else _; rw [if_pos rfl]
    | ⟨1, _⟩ => show q.val = if (2048 : Nat) = 1 then 0 else q.val; rw [if_neg (by decide)])

/-- The value stored into plane 0, at `(0, r, q)` of its slab: the real part. -/
theorem real_payload (v0 v1 : Vec Ideal S512x2048 .f32) (v2 : Vec Ideal S1x2048 .f32) (r : Fin 512) (q : Fin 2048) :
    k0_pay4 (F := Ideal) v0 v1 v2 (ix3 (0 : Fin 1) r q)
      = v0 (ix2 r q) * Ideal.cos (v2 (ix2 (0 : Fin 1) q)) - v1 (ix2 r q) * Ideal.sin (v2 (ix2 (0 : Fin 1) q)) := by
  unfold k0_pay4 k0_pay2 k0_pay3 k0_pay1
  dsimp only
  refine (plane_apply _ _ r q).trans ?_
  rw [subf_apply, mulf_apply, mulf_apply, row_apply, row_apply, shapeCast_self]
  rfl

/-- The value stored into plane 1, at `(0, r, q)` of its slab: the imaginary part. -/
theorem imag_payload (v0 v1 : Vec Ideal S512x2048 .f32) (v2 : Vec Ideal S1x2048 .f32) (r : Fin 512) (q : Fin 2048) :
    k0_pay5 (F := Ideal) v0 v1 v2 (ix3 (0 : Fin 1) r q)
      = v0 (ix2 r q) * Ideal.sin (v2 (ix2 (0 : Fin 1) q)) + v1 (ix2 r q) * Ideal.cos (v2 (ix2 (0 : Fin 1) q)) := by
  unfold k0_pay5 k0_pay2 k0_pay3 k0_pay1
  dsimp only
  refine (plane_apply _ _ r q).trans ?_
  rw [addf_apply, mulf_apply, mulf_apply, row_apply, row_apply, shapeCast_self]
  rfl

/-- The output block as one function of the three input blocks. -/
def rotatedBlock (x0 x1 : Vec Ideal S512x2048 .f32) (x2 : Vec Ideal S1x2048 .f32) : Vec Ideal S2x512x2048 .f32 :=
  fun y => entry (y 0).val (x0 (ix2 (y 1) (y 2))) (x1 (ix2 (y 1) (y 2))) (x2 (ix2 (0 : Fin 1) (y 2)))

/-- The slab of plane 0 holds plane 0 of `rotatedBlock`. -/
theorem real_piece (x0 x1 : Vec Ideal S512x2048 .f32) (x2 : Vec Ideal S1x2048 .f32) (x : S1x512x2048.Idx) :
    k0_pay4 (F := Ideal) (View.ld x0 r0_0) (View.ld x1 r0_0) (View.ld x2 r0_1) x = rotatedBlock x0 x1 x2 (r0_2.emb x) := by
  obtain ⟨u, r, q, rfl⟩ : ∃ (u : Fin 1) (r : Fin 512) (q : Fin 2048), x = ix3 u r q := ⟨x 0, x 1, x 2, eq_ix3 x⟩
  obtain rfl : u = 0 := Subsingleton.elim _ _
  rw [View.ld_unit_zero (S := S512x2048) zero_offsets, View.ld_unit_zero (S := S512x2048) zero_offsets,
    View.ld_unit_zero (S := S1x2048) zero_offsets, real_payload]
  have e : r0_2.emb (ix3 (0 : Fin 1) r q) = ix3 (0 : Fin 2) r q := funext fun a => Fin.ext (by
    match a with
    | ⟨0, _⟩ => rfl
    | ⟨1, _⟩ => show 0 + 1 * r.val = r.val; omega
    | ⟨2, _⟩ => show 0 + 1 * q.val = q.val; omega)
  rw [e]
  exact (entry_real _ _ _).symm

/-- The slab of plane 1 holds plane 1 of `rotatedBlock`. -/
theorem imag_piece (x0 x1 : Vec Ideal S512x2048 .f32) (x2 : Vec Ideal S1x2048 .f32) (x : S1x512x2048.Idx) :
    k0_pay5 (F := Ideal) (View.ld x0 r0_0) (View.ld x1 r0_0) (View.ld x2 r0_1) x = rotatedBlock x0 x1 x2 (r0_3.emb x) := by
  obtain ⟨u, r, q, rfl⟩ : ∃ (u : Fin 1) (r : Fin 512) (q : Fin 2048), x = ix3 u r q := ⟨x 0, x 1, x 2, eq_ix3 x⟩
  obtain rfl : u = 0 := Subsingleton.elim _ _
  rw [View.ld_unit_zero (S := S512x2048) zero_offsets, View.ld_unit_zero (S := S512x2048) zero_offsets,
    View.ld_unit_zero (S := S1x2048) zero_offsets, imag_payload]
  have e : r0_3.emb (ix3 (0 : Fin 1) r q) = ix3 (1 : Fin 2) r q := funext fun a => Fin.ext (by
    match a with
    | ⟨0, _⟩ => rfl
    | ⟨1, _⟩ => show 0 + 1 * r.val = r.val; omega
    | ⟨2, _⟩ => show 0 + 1 * q.val = q.val; omega)
  rw [e]
  exact (entry_imag _ _ _).symm

/-- After the body the output block is `rotatedBlock` of the input blocks: both stored slabs are slabs of it, and they
    tile the block. -/
theorem out_eq (x0 x1 : Vec Ideal S512x2048 .f32) (x2 : Vec Ideal S1x2048 .f32) :
    out0_3 (F := Ideal) x0 x1 x2 = rotatedBlock x0 x1 x2 := by
  funext y
  unfold out0_3
  refine View.canon_apply_of_pieces (rotatedBlock x0 x1 x2) _ ?_ y (cover0_3 _ _ y)
  intro p hp x
  simp only [List.mem_cons, List.not_mem_nil, or_false] at hp
  rcases hp with rfl | rfl
  · exact imag_piece x0 x1 x2 x
  · exact real_piece x0 x1 x2 x

end Cert.KernelIdeal.Block

end
-- ==== Proof.KernelArray.lean ====
/-
  From the blocks to the whole output array.

  The grid has 32 points. Point `t` is given rows `512·t … 512·t + 511` of `xr` and of `xi` and the one row of
  phases (the phase vector with a unit leading axis, which a host reshape made before the call), and writes back
  both planes of those same rows of the output. The phase row is the same at every point, and the 32 row ranges
  tile the 16384 rows, so the output array after the run is the rotated array of the three arguments.
-/
import proofs.«143731_j24653112279144_2_alg».proof.Proof.Gen.KernelIdeal.Value
import proofs.«143731_j24653112279144_2_alg».proof.Proof.KernelBlock
import proofs.«143731_j24653112279144_2_alg».proof.Proof.Rotation
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.Rotation
open Idealize.ShloMosaic.Pipeline (Dat)

variable (m : (ℓ : Loc nD τ sig) → Buf (Elt Ideal) ℓ) (ρ : Dev nD → PrngReg)

/-- Which block each window is on at grid point `t` (decided over the 32 points): the two inputs and the output move
    down the rows with `t`, the phase row stays, and nothing moves along the columns or the planes. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Every one of the 32 row ranges is some grid point's. -/
theorem point_of_range : ∀ b : Fin 32, ∃ t : Fin cfg0.N, t.val = b.val :=
  (by decide +kernel : ∀ b : Fin 32, ∃ t : Fin grid0.N, t.val = b.val)

/-- The phase row as the call finds it: the phase vector given a unit leading axis. -/
theorem phase_row (c : Dev nD) :
    (V m c main_v0 : S1x2048.Idx → EReal)
      = shapeCast S1x2048 (m ((c : Thread nD τ).loc main_arg2)) shapeCasts_S2048_S1x2048 := by
  dsimp only [Gen.V, Gen.hostOps0]; after_results; rfl

/-- Column `q` of the phase row is entry `q` of the phase vector. -/
theorem phase_row_apply (c : Dev nD) (q : Fin 2048) :
    (V m c main_v0 : S1x2048.Idx → EReal) (ix2 (0 : Fin 1) q)
      = (m ((c : Thread nD τ).loc main_arg2) : S2048.Idx → EReal) (ix1 q) := by
  rw [phase_row]
  exact (shapeCast_addUnit_apply ![2048] _ _ (ix2 (0 : Fin 1) q)).trans
    (congrArg _ (funext fun a => by match a with | ⟨0, _⟩ => rfl))

/-- The block of `xr` at point `t`, read at `(r, q)`, is `xr` at row `512·t + r`. -/
theorem xr_block (c : Dev nD) (t : Fin cfg0.N) (r : Fin 512) (q : Fin 2048) (k : Fin 16384) (hk : k.val = t.val * 512 + r.val) :
    (iblk m c 0 t : Vec Ideal S512x2048 .f32) (ix2 r q)
      = (m ((c : Thread nD τ).loc main_arg0) : S16384x2048.Idx → EReal) (ix2 k q) := by
  obtain ⟨e0, e1, -⟩ := index_facts t
  show V m c main_arg0 (((cfg0.win 0).blk t).view.emb (ix2 r q)) = _
  rw [V_main_arg0]
  refine congrArg _ (funext fun a => Fin.ext ?_)
  match a with
  | ⟨0, _⟩ => show win0_0.index t (0 : Fin 2) * 512 + 1 * r.val = k.val; omega
  | ⟨1, _⟩ => show win0_0.index t (1 : Fin 2) * 2048 + 1 * q.val = q.val; omega

/-- The block of `xi` at point `t`, read at `(r, q)`, is `xi` at row `512·t + r`. -/
theorem xi_block (c : Dev nD) (t : Fin cfg0.N) (r : Fin 512) (q : Fin 2048) (k : Fin 16384) (hk : k.val = t.val * 512 + r.val) :
    (iblk m c 1 t : Vec Ideal S512x2048 .f32) (ix2 r q)
      = (m ((c : Thread nD τ).loc main_arg1) : S16384x2048.Idx → EReal) (ix2 k q) := by
  obtain ⟨-, -, e2, e3, -⟩ := index_facts t
  show V m c main_arg1 (((cfg0.win 1).blk t).view.emb (ix2 r q)) = _
  rw [V_main_arg1]
  refine congrArg _ (funext fun a => Fin.ext ?_)
  match a with
  | ⟨0, _⟩ => show win0_1.index t (0 : Fin 2) * 512 + 1 * r.val = k.val; omega
  | ⟨1, _⟩ => show win0_1.index t (1 : Fin 2) * 2048 + 1 * q.val = q.val; omega

/-- The phase block at any point, read at column `q`, is entry `q` of the phase vector. -/
theorem phase_block (c : Dev nD) (t : Fin cfg0.N) (q : Fin 2048) :
    (iblk m c 2 t : Vec Ideal S1x2048 .f32) (ix2 (0 : Fin 1) q)
      = (m ((c : Thread nD τ).loc main_arg2) : S2048.Idx → EReal) (ix1 q) := by
  obtain ⟨-, -, -, -, e4, e5, -⟩ := index_facts t
  refine Eq.trans ?_ (phase_row_apply m c q)
  show V m c main_v0 (((cfg0.win 2).blk t).view.emb (ix2 (0 : Fin 1) q)) = V m c main_v0 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

/-- What point `t` writes back is block `t` of the rotated array of the three arguments. -/
theorem flushed_eq (c : Dev nD) (t : Fin cfg0.N) :
    (dats m 0 c).flushed 3 t = ((cfg0.win 3).blk t).view.read (Elt Ideal)
      (rotate (m ((c : Thread nD τ).loc main_arg0)) (m ((c : Thread nD τ).loc main_arg1)) (m ((c : Thread nD τ).loc main_arg2))) := by
  rw [flushed3]
  funext j
  obtain ⟨p, r, q, rfl⟩ : ∃ (p : Fin 2) (r : Fin 512) (q : Fin 2048), j = ix3 p r q :=
    ⟨j 0, j 1, j 2, eq_ix3 (n0 := 2) (n1 := 512) (n2 := 2048) j⟩
  obtain ⟨-, -, -, -, -, -, e6, e7, e8⟩ := index_facts t
  have ht : t.val < 32 := Nat.lt_of_lt_of_eq t.isLt (N_0 : cfg0.N = 32)
  have hk : t.val * 512 + r.val < 16384 := by have := r.isLt; omega
  have e : ((cfg0.win 3).blk t).view.emb (ix3 p r q) = ix3 p (⟨t.val * 512 + r.val, hk⟩ : Fin 16384) q :=
    funext fun a => Fin.ext (by
      match a with
      | ⟨0, _⟩ => show win0_3.index t (0 : Fin 3) * 2 + 1 * p.val = p.val; omega
      | ⟨1, _⟩ => show win0_3.index t (1 : Fin 3) * 512 + 1 * r.val = t.val * 512 + r.val; omega
      | ⟨2, _⟩ => show win0_3.index t (2 : Fin 3) * 2048 + 1 * q.val = q.val; omega)
  show out0_3 (iblk m c 0 t) (iblk m c 1 t) (iblk m c 2 t) (ix3 p r q)
    = rotate _ _ _ (((cfg0.win 3).blk t).view.emb (ix3 p r q))
  rw [e, rotate_apply]
  refine (congrFun (out_eq _ _ _) (ix3 p r q)).trans ?_
  show entry p.val ((iblk m c 0 t : Vec Ideal S512x2048 .f32) (ix2 r q)) ((iblk m c 1 t : Vec Ideal S512x2048 .f32) (ix2 r q))
    ((iblk m c 2 t : Vec Ideal S1x2048 .f32) (ix2 (0 : Fin 1) q)) = _
  rw [xr_block m c t r q ⟨_, hk⟩ rfl, xi_block m c t r q ⟨_, hk⟩ rfl, phase_block m c t q]

/-- An index of the output array is in point `t`'s block iff each coordinate is in the block's range on its axis. -/
theorem mem_blk (t : Fin cfg0.N) (i : S2x16384x2048.Idx) :
    i ∈ ((cfg0.win 3).blk t).view.set ↔ ∀ a : Fin 3, win0_3.index t a * S2x512x2048.size a ≤ (i a).val
      ∧ (i a).val < win0_3.index t a * S2x512x2048.size a + S2x512x2048.size a := by
  show i ∈ ((View.whole main_v1).slice (win0_3.rect t)).set ↔ _
  rw [View.set_slice_whole, Rect.mem_set_unit]
  exact Iff.rfl

/-- Every entry of the output array is written back by some point: the one whose row range holds its row. -/
theorem covered (i : S2x16384x2048.Idx) :
    ∃ t : Fin cfg0.N, (cfg0.win 3).flush t = true ∧ i ∈ ((cfg0.win 3).blk t).view.set := by
  have h0 : (i 0).val < 2 := (i 0).isLt
  have h1 : (i 1).val < 16384 := (i 1).isLt
  have h2 : (i 2).val < 2048 := (i 2).isLt
  obtain ⟨t, ht⟩ := point_of_range ⟨(i 1).val / 512, by omega⟩
  have ht' : t.val = (i 1).val / 512 := ht
  obtain ⟨-, -, -, -, -, -, e6, e7, e8⟩ := index_facts t
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- The output array after the run is the rotated array of the three arguments. -/
theorem final (c : Dev nD) : (dats m 0 c).arrAt 3 cfg0.N
    = rotate (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result is the rotated array, the arguments are unchanged. -/
theorem run : θ_run defs (onTc (τ := τ) (main (F := Ideal))) ⟨m, fun _ => 0, ρ⟩ fun r => ∀ c : Dev nD,
      r.2.mem ((c : Thread nD τ).loc main_v1)
        = rotate (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/- The proof of `Cert.Claim` (proofs.«143731_j24653112279144_2_alg».proof.Defs).

   The kernel rotates a complex array `xr + i·xi` (16384 rows, 2048 columns) column by column by the unit complex
   numbers `cos p_q + i·sin p_q` and returns the real and the imaginary plane:
   `out[0] = xr·cos p − xi·sin p`, `out[1] = xr·sin p + xi·cos p`. It does so 512 rows at a time over a grid of 32
   points; the reference does it on the whole arrays at once and stacks the two planes. Entry by entry both apply the
   same operations in the same order, so on the extended reals the two results are one function of the arguments
   (Proof/Rotation.lean) with no law of arithmetic and no finiteness needed:
   Proof/RefRotation.lean reads the reference's result at an entry, Proof/KernelBlock.lean what the kernel body leaves
   in a block, Proof/KernelArray.lean puts the 32 blocks together. The three programs run, fault-free, with their
   arguments unchanged (the two kernels' generated frames; the reference's generated run), and the idealized kernel
   is the kernel's own text read at the ideal instance (nothing was rewritten). -/
import proofs.«143731_j24653112279144_2_alg».proof.Defs
import proofs.«143731_j24653112279144_2_alg».proof.Proof.Gen.Kernel
import proofs.«143731_j24653112279144_2_alg».proof.Proof.Gen.Kernel.Skeleton
import proofs.«143731_j24653112279144_2_alg».proof.Proof.Gen.Kernel.Launch
import proofs.«143731_j24653112279144_2_alg».proof.Proof.Gen.Kernel.Points
import proofs.«143731_j24653112279144_2_alg».proof.Proof.Gen.Kernel.Frame
import proofs.«143731_j24653112279144_2_alg».proof.Proof.Gen.KernelIdeal
import proofs.«143731_j24653112279144_2_alg».proof.Proof.Gen.KernelIdeal.Skeleton
import proofs.«143731_j24653112279144_2_alg».proof.Proof.Gen.KernelIdeal.Launch
import proofs.«143731_j24653112279144_2_alg».proof.Proof.Gen.KernelIdeal.Points
import proofs.«143731_j24653112279144_2_alg».proof.Proof.Gen.KernelIdeal.Frame
import proofs.«143731_j24653112279144_2_alg».proof.Proof.Gen.ReferenceIdeal
import proofs.«143731_j24653112279144_2_alg».proof.Proof.Gen.Pre_finite_inputs
import proofs.«143731_j24653112279144_2_alg».proof.Proof.Gen.KernelIdeal.Value
import proofs.«143731_j24653112279144_2_alg».proof.Proof.Gen.ReferenceIdeal.Run
import proofs.«143731_j24653112279144_2_alg».proof.Proof.Gen.ReferenceIdeal.Read
import proofs.«143731_j24653112279144_2_alg».proof.Proof.Rotation
import proofs.«143731_j24653112279144_2_alg».proof.Proof.RefRotation
import proofs.«143731_j24653112279144_2_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference runs and leaves its arguments as they were: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the three arguments, the idealized kernel and the reference both end with the rotated
    array of those arguments as their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Rotation.rotate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
